-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64x2 .f32) (main_arg8 : FVec F S2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S128 .f32) (main_arg5 : FVec F S128x64 .f32) (main_arg6 : FVec F S64 .f32) (main_arg7 : FVec F S64x2 .f32) (main_arg8 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S131072x512 .f32) (main_arg1 : FVec F S512x256 .f32) (main_arg2 : FVec F S256 .f32) (main_arg3 : FVec F S256x128 .f32) (main_arg4 : FVec F S128 .f32) (main_arg5 : FVec F S128x64 .f32) (main_arg6 : FVec F S64 .f32) (main_arg7 : FVec F S64x2 .f32) (main_arg8 : FVec F S2 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩
abbrev S1x2 : Shape := ⟨2, ![1, 2]⟩
abbrev S1x256 : Shape := ⟨2, ![1, 256]⟩
abbrev S1x128 : Shape := ⟨2, ![1, 128]⟩
abbrev S1x64 : Shape := ⟨2, ![1, 64]⟩
abbrev S131072x2 : Shape := ⟨2, ![131072, 2]⟩
abbrev S2048x512 : Shape := ⟨2, ![2048, 512]⟩
abbrev S2048x2 : Shape := ⟨2, ![2048, 2]⟩
abbrev S2048x256 : Shape := ⟨2, ![2048, 256]⟩
abbrev S2048x128 : Shape := ⟨2, ![2048, 128]⟩
abbrev S2048x64 : Shape := ⟨2, ![2048, 64]⟩

abbrev nBuf : Space → Nat
  | .hbm => 44
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S512x256, .bf16⟩
  | .hbm, ⟨10, _⟩ => ⟨S256x128, .bf16⟩
  | .hbm, ⟨11, _⟩ => ⟨S128x64, .bf16⟩
  | .hbm, ⟨12, _⟩ => ⟨S64x1, .f32⟩
  | .hbm, ⟨13, _⟩ => ⟨S64, .f32⟩
  | .hbm, ⟨14, _⟩ => ⟨S64x1, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x1, .f32⟩
  | .hbm, ⟨24, _⟩ => ⟨S64x2, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S2, .f32⟩
  | .hbm, ⟨38, _⟩ => ⟨S1x2, .f32⟩
  | .hbm, ⟨39, _⟩ => ⟨S64x2, .bf16⟩
  | .hbm, ⟨40, _⟩ => ⟨S1x256, .f32⟩
  | .hbm, ⟨41, _⟩ => ⟨S1x128, .f32⟩
  | .hbm, ⟨42, _⟩ => ⟨S1x64, .f32⟩
  | .hbm, ⟨43, _⟩ => ⟨S131072x2, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S64x2, .bf16⟩
  | .local _ .vmem, ⟨9, _⟩ => ⟨S1x2, .f32⟩
  | .local _ .vmem, ⟨10, _⟩ => ⟨S2048x2, .f32⟩
  | .local _ .vmem, ⟨11, _⟩ => ⟨S2048x2, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S64x2_S64x1_0_0 : S64x2.Slices ![0, 0] S64x1
  shapeCasts_S64x1_S64 : S64x1.ShapeCasts S64
  slices_S64x2_S64x1_0_1 : S64x2.Slices ![0, 1] S64x1
  bcast_S64_S64x1_0 : S64.BroadcastsInDim S64x1 (![0] : Fin 1 → Fin S64x1.rank)
  concatenates_S64x1_S64x1_S64x2_d1 : Shape.Concatenates [S64x1, S64x1] S64x2 1
  slices_S2_S1_0 : S2.Slices ![0] S1
  shapeCasts_S1_S_ : S1.ShapeCasts S_
  slices_S2_S1_1 : S2.Slices ![1] S1
  bcast_S_S1 : S_.BroadcastsInDim S1 (![] : Fin 0 → Fin S1.rank)
  concatenates_S1_S1_S2_d0 : Shape.Concatenates [S1, S1] S2 0
  shapeCasts_S2_S1x2 : S2.ShapeCasts S1x2
  shapeCasts_S256_S1x256 : S256.ShapeCasts S1x256
  shapeCasts_S128_S1x128 : S128.ShapeCasts S1x128
  shapeCasts_S64_S1x64 : S64.ShapeCasts S1x64
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2.size a ≤ S64x2.size a
  hwx0_7 : ∀ i : grid0.Coords, EltTy.bits .bf16 = 32 ∨ (Rect.block (s := S64x2) S64x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S131072x2.size a
  hwx0_9 : ∀ i : grid0.Coords, EltTy.bits .f32 = 32 ∨ (Rect.block (s := S131072x2) S2048x2.size (cc0_transform_9 i) (hinb0_9 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S64x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S131072x256 : Shape := ⟨2, ![131072, 256]⟩
abbrev S1x256 : Shape := ⟨2, ![1, 256]⟩
abbrev S_ : Shape := ⟨0, ![]⟩
abbrev S131072x128 : Shape := ⟨2, ![131072, 128]⟩
abbrev S1x128 : Shape := ⟨2, ![1, 128]⟩
abbrev S131072x64 : Shape := ⟨2, ![131072, 64]⟩
abbrev S1x64 : Shape := ⟨2, ![1, 64]⟩
abbrev S131072x2 : Shape := ⟨2, ![131072, 2]⟩
abbrev S1x2 : Shape := ⟨2, ![1, 2]⟩
abbrev S131072 : Shape := ⟨1, ![131072]⟩
abbrev S131072x1 : Shape := ⟨2, ![131072, 1]⟩

abbrev nBuf : Space → Nat
  | .hbm => 48
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S131072x256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072x256, .f32⟩
  | .hbm, ⟨15, _⟩ => ⟨S131072x256, .f32⟩
  | .hbm, ⟨16, _⟩ => ⟨S131072x128, .f32⟩
  | .hbm, ⟨17, _⟩ => ⟨S1x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S131072x64, .f32⟩
  | .hbm, ⟨24, _⟩ => ⟨S1x64, .f32⟩
  | .hbm, ⟨25, _⟩ => ⟨S131072x64, .f32⟩
  | .hbm, ⟨26, _⟩ => ⟨S131072x64, .f32⟩
  | .hbm, ⟨27, _⟩ => ⟨S_, .f32⟩
  | .hbm, ⟨28, _⟩ => ⟨S131072x64, .f32⟩
  | .hbm, ⟨29, _⟩ => ⟨S131072x64, .f32⟩
  | .hbm, ⟨30, _⟩ => ⟨S131072x2, .f32⟩
  | .hbm, ⟨31, _⟩ => ⟨S1x2, .f32⟩
  | .hbm, ⟨32, _⟩ => ⟨S131072x2, .f32⟩
  | .hbm, ⟨33, _⟩ => ⟨S131072x2, .f32⟩
  | .hbm, ⟨34, _⟩ => ⟨S_, .f32⟩
  | .hbm, ⟨35, _⟩ => ⟨S131072, .f32⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S131072x1, .f32⟩
  | .hbm, ⟨40, _⟩ => ⟨S131072x2, .f32⟩
  | .hbm, ⟨41, _⟩ => ⟨S131072x2, .f32⟩
  | .hbm, ⟨42, _⟩ => ⟨S131072x2, .f32⟩
  | .hbm, ⟨43, _⟩ => ⟨S_, .f32⟩
  | .hbm, ⟨44, _⟩ => ⟨S131072, .f32⟩
  | .hbm, ⟨45, _⟩ => ⟨S131072x1, .f32⟩
  | .hbm, ⟨46, _⟩ => ⟨S131072x2, .f32⟩
  | .hbm, ⟨47, _⟩ => ⟨S131072x2, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  reducesTo_S131072x2_S131072_d1 : S131072x2.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x2_0_1 : S131072x1.BroadcastsInDim S131072x2 (![0, 1] : Fin 2 → Fin S131072x2.rank)
  dot_S131072x512_S512x256_S131072x256_1_0_0_1_n_n_wf : DotDims.WF S131072x512 S512x256 S131072x256 [1] [0] [0] [1] [] []
  dot_S131072x256_S256x128_S131072x128_1_0_0_1_n_n_wf : DotDims.WF S131072x256 S256x128 S131072x128 [1] [0] [0] [1] [] []
  dot_S131072x128_S128x64_S131072x64_1_0_0_1_n_n_wf : DotDims.WF S131072x128 S128x64 S131072x64 [1] [0] [0] [1] [] []
  dot_S131072x64_S64x2_S131072x2_1_0_0_1_n_n_wf : DotDims.WF S131072x64 S64x2 S131072x2 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x2_S131072x2_1_0_0_1_n_n : DotDims S131072x64 S64x2 S131072x2 where
  lhsContracting := [1]
  rhsContracting := [0]
  lhsNonContracting := [0]
  rhsNonContracting := [1]
  lhsBatch := []
  rhsBatch := []
  wf := dot_S131072x64_S64x2_S131072x2_1_0_0_1_n_n_wf

class Facts : Prop extends Facts₀ where

variable [Facts]
-- ==== Proof.LibGateHead.lean ====
/-
  The mathematics of a two-class gate head behind a stack of clamped linear layers, on the extended reals.

  * `layer X W B`: rows of X times W plus the bias B along every row, clamped from below at 0; on real entries it
    is the coercion of the same expression over the reals (`layer_coe`), so a stack of layers of real inputs is real.
  * `gateRow h Wd bd q`: 1 / (1 + exp (0 - d_q)) for the logit d_q = sum_c h_c * Wd_{c,q} + bd_q.
  * `softRow h W b q`: the shifted softmax of the two logits l_j = sum_c h_c * W_{c,j} + b_j at class q:
    exp (l_q - M) / (0 + sum_j exp (l_j - M)) with M = max bot (max over j of l_j, folded from bot).
  * `gate_eq_soft`: for REAL h, W, b, the gate of the antisymmetric differences (W_{c,q} - W_{c,1-q}, b_q - b_{1-q})
    is the softmax: d_q = l_q - l_{1-q} by distributivity over the reals, and
    1 / (1 + exp (-(x - y))) = exp (x - M) / (exp (x - M) + exp (y - M)) for every real M.
-/
import Idealize.ShloMosaic.PureOps.Ideal.Laws

noncomputable section

open scoped BigOperators

namespace Cert.GateSpec

open Idealize.ShloMosaic

/-- The coercion of a finite real sum is the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- Rows of X times W plus B along every row, clamped from below at 0. -/
def layer {a k b : ℕ} (X : Fin a → Fin k → EReal) (W : Fin k → Fin b → EReal) (B : Fin b → EReal) :
    Fin a → Fin b → EReal :=
  fun r c => max ((∑ j : Fin k, X r j * W j c) + B c) 0

/-- The same layer over the reals. -/
def layerR {a k b : ℕ} (X : Fin a → Fin k → ℝ) (W : Fin k → Fin b → ℝ) (B : Fin b → ℝ) : Fin a → Fin b → ℝ :=
  fun r c => max ((∑ j : Fin k, X r j * W j c) + B c) 0

/-- A layer of real entries is the real layer. -/
theorem layer_coe {a k b : ℕ} (X : Fin a → Fin k → ℝ) (W : Fin k → Fin b → ℝ) (B : Fin b → ℝ) :
    layer (fun r j => (X r j : EReal)) (fun j c => (W j c : EReal)) (fun c => (B c : EReal))
      = fun r c => ((layerR X W B r c : ℝ) : EReal) := by
  funext r c
  show max ((∑ j : Fin k, (X r j : EReal) * (W j c : EReal)) + (B c : EReal)) 0 = _
  have h1 : (∑ j : Fin k, (X r j : EReal) * (W j c : EReal)) = ((∑ j : Fin k, X r j * W j c : ℝ) : EReal) := by
    rw [coe_sum]; exact Finset.sum_congr rfl fun j _ => (EReal.coe_mul _ _).symm
  rw [h1, ← EReal.coe_add, ← EReal.coe_zero, ← coe_max]
  rfl

/-- A layer's row depends on that row of its input only. -/
theorem layer_row {a a' k b : ℕ} (X : Fin a → Fin k → EReal) (X' : Fin a' → Fin k → EReal) (W : Fin k → Fin b → EReal)
    (B : Fin b → EReal) (r : Fin a) (r' : Fin a') (h : X r = X' r') : layer X W B r = layer X' W B r' := by
  funext c
  show max ((∑ j : Fin k, X r j * W j c) + B c) 0 = max ((∑ j : Fin k, X' r' j * W j c) + B c) 0
  rw [h]

/-- Three clamped linear layers, one after the other. -/
def stack {n d0 d1 d2 d3 : ℕ} (X : Fin n → Fin d0 → EReal) (W1 : Fin d0 → Fin d1 → EReal) (B1 : Fin d1 → EReal)
    (W2 : Fin d1 → Fin d2 → EReal) (B2 : Fin d2 → EReal) (W3 : Fin d2 → Fin d3 → EReal) (B3 : Fin d3 → EReal) :
    Fin n → Fin d3 → EReal :=
  layer (layer (layer X W1 B1) W2 B2) W3 B3

/-- A row of the stack depends on that row of its input only. -/
theorem stack_row {n n' d0 d1 d2 d3 : ℕ} (X : Fin n → Fin d0 → EReal) (X' : Fin n' → Fin d0 → EReal)
    (W1 : Fin d0 → Fin d1 → EReal) (B1 : Fin d1 → EReal) (W2 : Fin d1 → Fin d2 → EReal) (B2 : Fin d2 → EReal)
    (W3 : Fin d2 → Fin d3 → EReal) (B3 : Fin d3 → EReal) (r : Fin n) (r' : Fin n') (h : X r = X' r') :
    stack X W1 B1 W2 B2 W3 B3 r = stack X' W1 B1 W2 B2 W3 B3 r' :=
  layer_row _ _ _ _ r r' (layer_row _ _ _ _ r r' (layer_row _ _ _ _ r r' h))

/-- The stack of real entries is real. -/
theorem stack_coe {n d0 d1 d2 d3 : ℕ} (X : Fin n → Fin d0 → ℝ) (W1 : Fin d0 → Fin d1 → ℝ) (B1 : Fin d1 → ℝ)
    (W2 : Fin d1 → Fin d2 → ℝ) (B2 : Fin d2 → ℝ) (W3 : Fin d2 → Fin d3 → ℝ) (B3 : Fin d3 → ℝ) :
    stack (fun r j => (X r j : EReal)) (fun j c => (W1 j c : EReal)) (fun c => (B1 c : EReal))
        (fun j c => (W2 j c : EReal)) (fun c => (B2 c : EReal)) (fun j c => (W3 j c : EReal)) (fun c => (B3 c : EReal))
      = fun r c => ((layerR (layerR (layerR X W1 B1) W2 B2) W3 B3 r c : ℝ) : EReal) := by
  unfold stack
  rw [layer_coe, layer_coe, layer_coe]

/-- The gate: 1 / (1 + exp (0 - d_q)), d_q the logit of column q. -/
def gateRow {k : ℕ} (h : Fin k → EReal) (Wd : Fin k → Fin 2 → EReal) (bd : Fin 2 → EReal) (q : Fin 2) : EReal :=
  Ideal.div 1 (1 + Ideal.exp (0 - ((∑ c : Fin k, h c * Wd c q) + bd q)))

/-- The two logits of a row. -/
def logits {k : ℕ} (h : Fin k → EReal) (W : Fin k → Fin 2 → EReal) (b : Fin 2 → EReal) : Fin 2 → EReal :=
  fun j => (∑ c : Fin k, h c * W c j) + b j

/-- The shifted softmax of the two logits at class q. -/
def softRow {k : ℕ} (h : Fin k → EReal) (W : Fin k → Fin 2 → EReal) (b : Fin 2 → EReal) (q : Fin 2) : EReal :=
  Ideal.div (Ideal.exp (logits h W b q - max ⊥ ((Finset.univ : Finset (Fin 2)).fold max ⊥ (logits h W b))))
    (0 + ∑ j : Fin 2, Ideal.exp (logits h W b j - max ⊥ ((Finset.univ : Finset (Fin 2)).fold max ⊥ (logits h W b))))

/-- The antisymmetric differences of a two-column matrix. -/
def diffCols {k : ℕ} (W : Fin k → Fin 2 → EReal) : Fin k → Fin 2 → EReal :=
  fun c q => if q = 0 then W c 0 - W c 1 else W c 1 - W c 0

/-- The antisymmetric differences of a pair. -/
def diffPair (b : Fin 2 → EReal) : Fin 2 → EReal :=
  fun q => if q = 0 then b 0 - b 1 else b 1 - b 0

/-- 1 / (1 + exp (-(x - y))) = exp (x - M) / (exp (x - M) + exp (y - M)). -/
theorem logistic_eq_softmax (x y M : ℝ) :
    1 * (1 / (1 + Real.exp (0 - (x - y)))) = Real.exp (x - M) * (1 / (Real.exp (x - M) + Real.exp (y - M))) := by
  have hx : 0 < Real.exp (x - M) := Real.exp_pos _
  have hy : 0 < Real.exp (y - M) := Real.exp_pos _
  have e : Real.exp (0 - (x - y)) = Real.exp (y - M) / Real.exp (x - M) := by
    rw [← Real.exp_sub]; congr 1; ring
  rw [e]
  field_simp

/-- The fold of max from bot over two entries. -/
theorem fold_max_two (L : Fin 2 → EReal) : (Finset.univ : Finset (Fin 2)).fold max ⊥ L = max (L 0) (L 1) := by
  have hu : (Finset.univ : Finset (Fin 2)) = insert 0 {1} := by decide
  rw [hu, Finset.fold_insert (by decide), Finset.fold_singleton, max_bot_right]

/-- The logit of real entries is real. -/
theorem logit_coe {k : ℕ} (h : Fin k → ℝ) (w : Fin k → ℝ) (b : ℝ) :
    (∑ c : Fin k, (h c : EReal) * (w c : EReal)) + (b : EReal) = (((∑ c : Fin k, h c * w c) + b : ℝ) : EReal) := by
  rw [EReal.coe_add, coe_sum]
  exact congrArg (· + (b : EReal)) (Finset.sum_congr rfl fun c _ => (EReal.coe_mul _ _).symm)

/-- For real entries the gate of the antisymmetric differences is the softmax. -/
theorem gate_eq_soft {k : ℕ} (h : Fin k → ℝ) (W : Fin k → Fin 2 → ℝ) (b : Fin 2 → ℝ) (q : Fin 2) :
    gateRow (fun c => (h c : EReal)) (diffCols fun c j => (W c j : EReal)) (diffPair fun j => (b j : EReal)) q
      = softRow (fun c => (h c : EReal)) (fun c j => (W c j : EReal)) (fun j => (b j : EReal)) q := by
  -- the real logits
  let l : Fin 2 → ℝ := fun j => (∑ c : Fin k, h c * W c j) + b j
  have hl : logits (fun c => (h c : EReal)) (fun c j => (W c j : EReal)) (fun j => (b j : EReal)) = fun j => ((l j : ℝ) : EReal) :=
    funext fun j => logit_coe h (fun c => W c j) (b j)
  -- the difference logit is the difference of the logits
  have hd : ∀ (q q' : Fin 2), (∑ c : Fin k, (h c : EReal) * ((W c q : EReal) - (W c q' : EReal))) + ((b q : EReal) - (b q' : EReal))
      = ((l q - l q' : ℝ) : EReal) := by
    intro q q'
    have e1 : ∀ c : Fin k, ((W c q : EReal) - (W c q' : EReal)) = ((W c q - W c q' : ℝ) : EReal) := fun c => (EReal.coe_sub _ _).symm
    rw [show ((b q : EReal) - (b q' : EReal)) = ((b q - b q' : ℝ) : EReal) from (EReal.coe_sub _ _).symm]
    simp only [e1]
    rw [logit_coe h (fun c => W c q - W c q') (b q - b q')]
    congr 1
    show (∑ c : Fin k, h c * (W c q - W c q')) + (b q - b q') = ((∑ c : Fin k, h c * W c q) + b q) - ((∑ c : Fin k, h c * W c q') + b q')
    simp only [mul_sub, Finset.sum_sub_distrib]
    ring
  -- the gate over the reals
  have hg : ∀ (q q' : Fin 2), Ideal.div 1 (1 + Ideal.exp (0 - ((l q - l q' : ℝ) : EReal)))
      = ((1 * (1 / (1 + Real.exp (0 - (l q - l q')))) : ℝ) : EReal) := by
    intro q q'
    rw [← EReal.coe_zero, ← EReal.coe_sub, Ideal.exp_coe, ← EReal.coe_one, ← EReal.coe_add,
      Ideal.div_coe (ne_of_gt (by positivity)), ← EReal.coe_mul]
  -- the softmax over the reals
  have hs : ∀ (q : Fin 2), softRow (fun c => (h c : EReal)) (fun c j => (W c j : EReal)) (fun j => (b j : EReal)) q
      = ((Real.exp (l q - max (l 0) (l 1)) * (1 / (Real.exp (l 0 - max (l 0) (l 1)) + Real.exp (l 1 - max (l 0) (l 1)))) : ℝ) : EReal) := by
    intro q
    unfold softRow
    rw [hl, fold_max_two, max_eq_right bot_le, ← coe_max, Fin.sum_univ_two]
    simp only [← EReal.coe_sub, Ideal.exp_coe]
    rw [← EReal.coe_add, ← EReal.coe_zero, ← EReal.coe_add, zero_add,
      Ideal.div_coe (ne_of_gt (by positivity)), ← EReal.coe_mul]
  rw [hs q]
  unfold gateRow diffCols diffPair
  match q with
  | ⟨0, _⟩ =>
    show Ideal.div 1 (1 + Ideal.exp (0 - ((∑ c : Fin k, (h c : EReal) * ((W c 0 : EReal) - (W c 1 : EReal))) + ((b 0 : EReal) - (b 1 : EReal))))) = _
    rw [hd 0 1, hg 0 1, logistic_eq_softmax (l 0) (l 1) (max (l 0) (l 1))]
    rfl
  | ⟨1, _⟩ =>
    show Ideal.div 1 (1 + Ideal.exp (0 - ((∑ c : Fin k, (h c : EReal) * ((W c 1 : EReal) - (W c 0 : EReal))) + ((b 1 : EReal) - (b 0 : EReal))))) = _
    rw [hd 1 0, hg 1 0, logistic_eq_softmax (l 1) (l 0) (max (l 0) (l 1)), add_comm (Real.exp (l 1 - max (l 0) (l 1)))]
    rfl

/-- Behind a stack of real layers, the gate of the antisymmetric differences is the softmax. -/
theorem gate_stack_eq_soft_stack {n d0 d1 d2 d3 : ℕ} (X : Fin n → Fin d0 → ℝ) (W1 : Fin d0 → Fin d1 → ℝ) (B1 : Fin d1 → ℝ)
    (W2 : Fin d1 → Fin d2 → ℝ) (B2 : Fin d2 → ℝ) (W3 : Fin d2 → Fin d3 → ℝ) (B3 : Fin d3 → ℝ)
    (W4 : Fin d3 → Fin 2 → ℝ) (b4 : Fin 2 → ℝ) (r : Fin n) (q : Fin 2) :
    gateRow (stack (fun r j => (X r j : EReal)) (fun j c => (W1 j c : EReal)) (fun c => (B1 c : EReal))
        (fun j c => (W2 j c : EReal)) (fun c => (B2 c : EReal)) (fun j c => (W3 j c : EReal)) (fun c => (B3 c : EReal)) r)
        (diffCols fun c j => (W4 c j : EReal)) (diffPair fun j => (b4 j : EReal)) q
      = softRow (stack (fun r j => (X r j : EReal)) (fun j c => (W1 j c : EReal)) (fun c => (B1 c : EReal))
        (fun j c => (W2 j c : EReal)) (fun c => (B2 c : EReal)) (fun j c => (W3 j c : EReal)) (fun c => (B3 c : EReal)) r)
        (fun c j => (W4 c j : EReal)) (fun j => (b4 j : EReal)) q := by
  rw [stack_coe]
  exact gate_eq_soft _ W4 b4 q

end Cert.GateSpec

end
-- ==== Proof.GateArrays.lean ====
/-
  The two programs' results as functions of the nine argument arrays, entry by entry, and their equality on finite
  arguments.

  * `kernelOut`: at (r, q) the gate 1 / (1 + exp (0 - d)) of row r of the three-layer stack against the antisymmetric
    differences of W4's columns and b4's entries.
  * `refOut`: at (r, q) the shifted softmax over the two logits of row r of the same stack against W4 and b4.
  * `kernelOut_eq_refOut`: when every entry of every argument is a real number the two are one function.
-/
import proofs.«167247_g9594956939721_cont_9to1_m_584_3_alg».proof.Proof.LibGateHead
import Idealize.ShloMosaic.Lib.ValueIdx

noncomputable section

namespace Cert.GateSpec

open Idealize.ShloMosaic Idealize.ShloMosaic.ValueIdx

/-- The kernel's result. -/
def kernelOut {n : ℕ} (A0 : (⟨2, ![n, 512]⟩ : Shape).Idx → EReal) (A1 : (⟨2, ![512, 256]⟩ : Shape).Idx → EReal)
    (A2 : (⟨1, ![256]⟩ : Shape).Idx → EReal) (A3 : (⟨2, ![256, 128]⟩ : Shape).Idx → EReal) (A4 : (⟨1, ![128]⟩ : Shape).Idx → EReal)
    (A5 : (⟨2, ![128, 64]⟩ : Shape).Idx → EReal) (A6 : (⟨1, ![64]⟩ : Shape).Idx → EReal) (A7 : (⟨2, ![64, 2]⟩ : Shape).Idx → EReal)
    (A8 : (⟨1, ![2]⟩ : Shape).Idx → EReal) : (⟨2, ![n, 2]⟩ : Shape).Idx → EReal :=
  fun i => gateRow (stack (fun r j => A0 (ix2 r j)) (fun j c => A1 (ix2 j c)) (fun c => A2 (ix1 c)) (fun j c => A3 (ix2 j c))
      (fun c => A4 (ix1 c)) (fun j c => A5 (ix2 j c)) (fun c => A6 (ix1 c)) (i 0 : Fin n))
    (diffCols fun c j => A7 (ix2 c j)) (diffPair fun j => A8 (ix1 j)) (i 1 : Fin 2)

/-- The reference's result. -/
def refOut {n : ℕ} (A0 : (⟨2, ![n, 512]⟩ : Shape).Idx → EReal) (A1 : (⟨2, ![512, 256]⟩ : Shape).Idx → EReal)
    (A2 : (⟨1, ![256]⟩ : Shape).Idx → EReal) (A3 : (⟨2, ![256, 128]⟩ : Shape).Idx → EReal) (A4 : (⟨1, ![128]⟩ : Shape).Idx → EReal)
    (A5 : (⟨2, ![128, 64]⟩ : Shape).Idx → EReal) (A6 : (⟨1, ![64]⟩ : Shape).Idx → EReal) (A7 : (⟨2, ![64, 2]⟩ : Shape).Idx → EReal)
    (A8 : (⟨1, ![2]⟩ : Shape).Idx → EReal) : (⟨2, ![n, 2]⟩ : Shape).Idx → EReal :=
  fun i => softRow (stack (fun r j => A0 (ix2 r j)) (fun j c => A1 (ix2 j c)) (fun c => A2 (ix1 c)) (fun j c => A3 (ix2 j c))
      (fun c => A4 (ix1 c)) (fun j c => A5 (ix2 j c)) (fun c => A6 (ix1 c)) (i 0 : Fin n))
    (fun c j => A7 (ix2 c j)) (fun j => A8 (ix1 j)) (i 1 : Fin 2)

/-- On real arguments the kernel's result is the reference's. -/
theorem kernelOut_eq_refOut {n : ℕ} (A0 : (⟨2, ![n, 512]⟩ : Shape).Idx → EReal) (A1 : (⟨2, ![512, 256]⟩ : Shape).Idx → EReal)
    (A2 : (⟨1, ![256]⟩ : Shape).Idx → EReal) (A3 : (⟨2, ![256, 128]⟩ : Shape).Idx → EReal) (A4 : (⟨1, ![128]⟩ : Shape).Idx → EReal)
    (A5 : (⟨2, ![128, 64]⟩ : Shape).Idx → EReal) (A6 : (⟨1, ![64]⟩ : Shape).Idx → EReal) (A7 : (⟨2, ![64, 2]⟩ : Shape).Idx → EReal)
    (A8 : (⟨1, ![2]⟩ : Shape).Idx → EReal)
    (h0 : ∀ i, ∃ x : ℝ, A0 i = x) (h1 : ∀ i, ∃ x : ℝ, A1 i = x) (h2 : ∀ i, ∃ x : ℝ, A2 i = x) (h3 : ∀ i, ∃ x : ℝ, A3 i = x)
    (h4 : ∀ i, ∃ x : ℝ, A4 i = x) (h5 : ∀ i, ∃ x : ℝ, A5 i = x) (h6 : ∀ i, ∃ x : ℝ, A6 i = x) (h7 : ∀ i, ∃ x : ℝ, A7 i = x)
    (h8 : ∀ i, ∃ x : ℝ, A8 i = x) :
    kernelOut A0 A1 A2 A3 A4 A5 A6 A7 A8 = refOut A0 A1 A2 A3 A4 A5 A6 A7 A8 := by
  choose f0 e0 using h0
  choose f1 e1 using h1
  choose f2 e2 using h2
  choose f3 e3 using h3
  choose f4 e4 using h4
  choose f5 e5 using h5
  choose f6 e6 using h6
  choose f7 e7 using h7
  choose f8 e8 using h8
  funext i
  unfold kernelOut refOut
  simp only [e0, e1, e2, e3, e4, e5, e6, e7, e8]
  exact gate_stack_eq_soft_stack (fun r j => f0 (ix2 r j)) (fun j c => f1 (ix2 j c)) (fun c => f2 (ix1 c)) (fun j c => f3 (ix2 j c))
    (fun c => f4 (ix1 c)) (fun j c => f5 (ix2 j c)) (fun c => f6 (ix1 c)) (fun c j => f7 (ix2 c j)) (fun j => f8 (ix1 j)) (i 0) (i 1)

end Cert.GateSpec

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.KernelTile.lean ====
/-
  The kernel's tile, read at an entry, at the ideal values.

  One grid point holds 2048 rows of the input. Its body is three clamped linear layers — a product into a zero
  accumulator (the operands' narrowing to bf16 changes nothing on the extended reals), a [1,b] bias row spread down
  the rows, a maximum with 0 — then a fourth product against a [64,2] matrix, a [1,2] bias row, and the logistic
  1 / (1 + exp (0 - d)). Read at (p, q) the block is `gateRow` of row p of the three-layer stack.
-/
import proofs.«167247_g9594956939721_cont_9to1_m_584_3_alg».proof.Proof.Gen.KernelIdeal.Value
import proofs.«167247_g9594956939721_cont_9to1_m_584_3_alg».proof.Proof.LibMatmul2
import proofs.«167247_g9594956939721_cont_9to1_m_584_3_alg».proof.Proof.LibUnitBlock
import proofs.«167247_g9594956939721_cont_9to1_m_584_3_alg».proof.Proof.LibGateHead
import Idealize.ShloMosaic.Lib.ValueIdx
import Idealize.ShloMosaic.Lib.Pipeline.Value
import Idealize.ShloMosaic.PureOps.Ideal.Laws

noncomputable section

open scoped BigOperators

namespace Cert.GateKernel

open Cert.KernelIdeal Cert.KernelIdeal.Gen Idealize.ShloMosaic Idealize.ShloMosaic.ValueIdx Cert.GateSpec

/-- The binary32 word of 1.0 is 1. -/
theorem ofBits_one_f32 : Ideal.ofBits .f32 0x3F800000#32 = 1 := by
  simp [Ideal.ofBits, Ideal.ieee, -EReal.coe_mul]; norm_num

/-- One clamped linear layer as a tile spells it. -/
def tileLayer {a k b : ℕ} (w : DotDims.WF ⟨2, ![a, k]⟩ ⟨2, ![k, b]⟩ ⟨2, ![a, b]⟩ [1] [0] [0] [1] [] [])
    (hW : (⟨2, ![k, b]⟩ : Shape).ShapeCasts ⟨2, ![k, b]⟩) (hY : (⟨2, ![1, b]⟩ : Shape).ShapeCasts ⟨2, ![1, b]⟩)
    (hs : (⟨2, ![1, b]⟩ : Shape).Broadcasts ⟨2, ![a, b]⟩) (hb : FTy.bits .bf16 < FTy.bits .f32)
    (X : FVec Ideal ⟨2, ![a, k]⟩ .bf16) (W : Vec Ideal ⟨2, ![k, b]⟩ .bf16) (Y : Vec Ideal ⟨2, ![1, b]⟩ .f32) :
    FVec Ideal ⟨2, ![a, b]⟩ .bf16 :=
  truncf .bf16 (maximumf (addf (matmul (⟨[1], [0], [0], [1], [], [], w⟩ : DotDims _ _ _) none X (shapeCast ⟨2, ![k, b]⟩ W hW : FVec Ideal ⟨2, ![k, b]⟩ .bf16)
      (constant (F := Ideal) ⟨2, ![a, b]⟩ .f32 0x00000000#32)) (broadcastTo ⟨2, ![a, b]⟩ (shapeCast ⟨2, ![1, b]⟩ Y hY : FVec Ideal ⟨2, ![1, b]⟩ .f32) hs))
      (broadcast ⟨2, ![a, b]⟩ (Scalar.ofBits (F := Ideal) .f32 0x00000000#32))) hb

/-- The tile's layer at (p, c) is the clamped linear layer of the operands read by coordinates. -/
theorem tileLayer_apply {a k b : ℕ} (w : DotDims.WF ⟨2, ![a, k]⟩ ⟨2, ![k, b]⟩ ⟨2, ![a, b]⟩ [1] [0] [0] [1] [] [])
    (hW : (⟨2, ![k, b]⟩ : Shape).ShapeCasts ⟨2, ![k, b]⟩) (hY : (⟨2, ![1, b]⟩ : Shape).ShapeCasts ⟨2, ![1, b]⟩)
    (hs : (⟨2, ![1, b]⟩ : Shape).Broadcasts ⟨2, ![a, b]⟩) (hb : FTy.bits .bf16 < FTy.bits .f32)
    (X : FVec Ideal ⟨2, ![a, k]⟩ .bf16) (W : Vec Ideal ⟨2, ![k, b]⟩ .bf16) (Y : Vec Ideal ⟨2, ![1, b]⟩ .f32) (p : Fin a) (c : Fin b) :
    tileLayer w hW hY hs hb X W Y (ix2 p c)
      = layer (fun r j => X (ix2 r j)) (fun j c => W (ix2 j c)) (fun c => Y (ix2 (0 : Fin 1) c)) p c := by
  unfold tileLayer
  rw [truncf_apply, maximumf_apply, addf_apply, broadcast_apply, shapeCast_self, shapeCast_self,
    LibUnitBlock.row_spread_apply]
  show max _ (Ideal.ofBits .f32 0x00000000#32) = _
  rw [Ideal.ofBits_zero_f32]
  exact congrArg (fun z => max (z + Y (ix2 (0 : Fin 1) c)) 0) (LibMatmul2.matmul_nn_apply w none X W p c)

theorem tileLayer_eq {a k b : ℕ} (w : DotDims.WF ⟨2, ![a, k]⟩ ⟨2, ![k, b]⟩ ⟨2, ![a, b]⟩ [1] [0] [0] [1] [] [])
    (hW : (⟨2, ![k, b]⟩ : Shape).ShapeCasts ⟨2, ![k, b]⟩) (hY : (⟨2, ![1, b]⟩ : Shape).ShapeCasts ⟨2, ![1, b]⟩)
    (hs : (⟨2, ![1, b]⟩ : Shape).Broadcasts ⟨2, ![a, b]⟩) (hb : FTy.bits .bf16 < FTy.bits .f32)
    (X : FVec Ideal ⟨2, ![a, k]⟩ .bf16) (W : Vec Ideal ⟨2, ![k, b]⟩ .bf16) (Y : Vec Ideal ⟨2, ![1, b]⟩ .f32) :
    (fun r c => tileLayer w hW hY hs hb X W Y (ix2 r c))
      = layer (fun r j => X (ix2 r j)) (fun j c => W (ix2 j c)) (fun c => Y (ix2 (0 : Fin 1) c)) :=
  funext fun r => funext fun c => tileLayer_apply w hW hY hs hb X W Y r c

/-- The three-layer stack of a tile, by coordinates. -/
def stack3 (x0 : Vec Ideal S2048x512 .f32) (x1 : Vec Ideal S512x256 .bf16) (x2 : Vec Ideal S1x256 .f32)
    (x3 : Vec Ideal S256x128 .bf16) (x4 : Vec Ideal S1x128 .f32) (x5 : Vec Ideal S128x64 .bf16) (x6 : Vec Ideal S1x64 .f32) :
    Fin 2048 → Fin 64 → EReal :=
  layer (layer (layer (fun r j => x0 (ix2 r j)) (fun j c => x1 (ix2 j c)) (fun c => x2 (ix2 (0 : Fin 1) c)))
    (fun j c => x3 (ix2 j c)) (fun c => x4 (ix2 (0 : Fin 1) c))) (fun j c => x5 (ix2 j c)) (fun c => x6 (ix2 (0 : Fin 1) c))

/-- The body's value before the head is the fourth product over the three tile layers. -/
theorem pay2_eq (x0 : Vec Ideal S2048x512 .f32) (x1 : Vec Ideal S512x256 .bf16) (x2 : Vec Ideal S1x256 .f32)
    (x3 : Vec Ideal S256x128 .bf16) (x4 : Vec Ideal S1x128 .f32) (x5 : Vec Ideal S128x64 .bf16) (x6 : Vec Ideal S1x64 .f32)
    (x7 : Vec Ideal S64x2 .bf16) :
    k0_pay2 (F := Ideal) x0 x1 x2 x3 x4 x5 x6 x7
      = matmul (⟨[1], [0], [0], [1], [], [], Facts₀.dot_S2048x64_S64x2_S2048x2_1_0_0_1_n_n_wf⟩ : DotDims S2048x64 S64x2 S2048x2) none
          (tileLayer Facts₀.dot_S2048x128_S128x64_S2048x64_1_0_0_1_n_n_wf Facts₀.shapeCasts_S128x64_S128x64 Facts₀.shapeCasts_S1x64_S1x64 Facts₀.broadcasts_S1x64_S2048x64 Facts₀.bitsLt_bf16_f32
            (tileLayer Facts₀.dot_S2048x256_S256x128_S2048x128_1_0_0_1_n_n_wf Facts₀.shapeCasts_S256x128_S256x128 Facts₀.shapeCasts_S1x128_S1x128 Facts₀.broadcasts_S1x128_S2048x128 Facts₀.bitsLt_bf16_f32
              (tileLayer Facts₀.dot_S2048x512_S512x256_S2048x256_1_0_0_1_n_n_wf Facts₀.shapeCasts_S512x256_S512x256 Facts₀.shapeCasts_S1x256_S1x256 Facts₀.broadcasts_S1x256_S2048x256 Facts₀.bitsLt_bf16_f32
                (truncf .bf16 x0 Facts₀.bitsLt_bf16_f32) x1 x2) x3 x4) x5 x6)
          (shapeCast S64x2 x7 Facts₀.shapeCasts_S64x2_S64x2 : FVec Ideal S64x2 .bf16) (constant (F := Ideal) S2048x2 .f32 0x00000000#32) := rfl

/-- The body's value before the head, at (p, q): row p of the stack against column q of the last matrix. -/
theorem pay2_apply (x0 : Vec Ideal S2048x512 .f32) (x1 : Vec Ideal S512x256 .bf16) (x2 : Vec Ideal S1x256 .f32)
    (x3 : Vec Ideal S256x128 .bf16) (x4 : Vec Ideal S1x128 .f32) (x5 : Vec Ideal S128x64 .bf16) (x6 : Vec Ideal S1x64 .f32)
    (x7 : Vec Ideal S64x2 .bf16) (p : Fin 2048) (q : Fin 2) :
    k0_pay2 (F := Ideal) x0 x1 x2 x3 x4 x5 x6 x7 (ix2 p q) = ∑ c : Fin 64, stack3 x0 x1 x2 x3 x4 x5 x6 p c * x7 (ix2 c q) := by
  rw [pay2_eq]
  refine (LibMatmul2.matmul_nn_apply Facts₀.dot_S2048x64_S64x2_S2048x2_1_0_0_1_n_n_wf none _ _ p q).trans ?_
  refine Finset.sum_congr rfl fun c _ => ?_
  rw [shapeCast_self, tileLayer_apply, tileLayer_eq, tileLayer_eq]
  rfl

/-- A block of the output at (p, q): the gate of row p of the stack. -/
theorem block_apply (x0 : Vec Ideal S2048x512 .f32) (x1 : Vec Ideal S512x256 .bf16) (x2 : Vec Ideal S1x256 .f32)
    (x3 : Vec Ideal S256x128 .bf16) (x4 : Vec Ideal S1x128 .f32) (x5 : Vec Ideal S128x64 .bf16) (x6 : Vec Ideal S1x64 .f32)
    (x7 : Vec Ideal S64x2 .bf16) (x8 : Vec Ideal S1x2 .f32) (p : Fin 2048) (q : Fin 2) :
    Cert.KernelIdeal.Value.E9 (F := Ideal) x0 x1 x2 x3 x4 x5 x6 x7 x8 (ix2 p q)
      = gateRow (stack3 x0 x1 x2 x3 x4 x5 x6 p) (fun c j => x7 (ix2 c j)) (fun j => x8 (ix2 (0 : Fin 1) j)) q := by
  have e0 : Cert.KernelIdeal.Value.ix9_0 (ix2 p q) = ix2 p q :=
    funext fun a => Fin.ext (by match a with | ⟨0, _⟩ => rfl | ⟨1, _⟩ => rfl)
  have e1 : Cert.KernelIdeal.Value.ix9_1 (ix2 p q) = ix2 (0 : Fin 1) q :=
    funext fun a => Fin.ext (by match a with | ⟨0, _⟩ => rfl | ⟨1, _⟩ => rfl)
  show Ideal.div (Ideal.ofBits .f32 0x3F800000#32) (Ideal.ofBits .f32 0x3F800000#32 + Ideal.exp (Ideal.ofBits .f32 0x00000000#32
      - (k0_pay2 (F := Ideal) x0 x1 x2 x3 x4 x5 x6 x7 (Cert.KernelIdeal.Value.ix9_0 (ix2 p q)) + x8 (Cert.KernelIdeal.Value.ix9_1 (ix2 p q))))) = _
  rw [e0, e1, pay2_apply, ofBits_one_f32, Ideal.ofBits_zero_f32]
  rfl

end Cert.GateKernel

end
-- ==== Proof.KernelHost.lean ====
/-
  What the kernel's region finds in the arrays the host wrote before it, read at an entry.

  Before the call the host narrows W1, W2, W3 to bf16 (the identity on the extended reals), views b1, b2, b3 as
  one-row matrices, and builds the antisymmetric head: the [64,2] matrix whose column q is W4[:,q] - W4[:,1-q]
  (two column slices, subtracted, set side by side) and the [1,2] row whose entry q is b4[q] - b4[1-q].
-/
import proofs.«167247_g9594956939721_cont_9to1_m_584_3_alg».proof.Proof.Gen.KernelIdeal.Value
import proofs.«167247_g9594956939721_cont_9to1_m_584_3_alg».proof.Proof.LibGateHead
import Idealize.ShloMosaic.Lib.ValueIdx
import Idealize.ShloMosaic.Lib.Pipeline.Value
import Idealize.ShloMosaic.Lib.StableHlo.Run
import Idealize.ShloMosaic.PureOps.Ideal.Laws

noncomputable section

namespace Cert.GateKernel

open Cert.KernelIdeal Cert.KernelIdeal.Gen Idealize.ShloMosaic Idealize.ShloMosaic.TcCoe Idealize.ShloMosaic.ValueIdx
open Idealize.SL.Sem Idealize.ShloMosaic.StableHlo Cert.GateSpec

/-- A vector viewed as a one-row matrix reads, at (u, c), the vector at c. -/
theorem vec_as_row_apply {α : Type} {b : ℕ} (v : (⟨1, ![b]⟩ : Shape).Idx → α)
    (h : (⟨1, ![b]⟩ : Shape).ShapeCasts ⟨2, ![1, b]⟩) (u : Fin 1) (c : Fin b) :
    shapeCast ⟨2, ![1, b]⟩ v h (ix2 u c) = v (ix1 c) :=
  shapeCast_apply v h _ _ (by
    have hu : u.val = 0 := by omega
    rw [Shape.rowMajor_val_one, Shape.rowMajor_val_two]
    show c.val = u.val * b + c.val
    rw [hu, Nat.zero_mul, Nat.zero_add])

/-- Column k of a [64,2] matrix, sliced out and viewed as a vector, reads at c the matrix at (c, k). -/
theorem col_apply {α : Type} (A : S64x2.Idx → α) (off : Fin 2 → ℕ) (k : Fin 2) (h0 : off 0 = 0) (h1 : off 1 = k.val)
    (hs : S64x2.Slices off S64x1) (hc : S64x1.ShapeCasts S64) (c : Fin 64) :
    shapeCast S64 (extractStridedSlice S64x1 off A hs) hc (ix1 c) = A (ix2 c k) := by
  refine (shapeCast_apply _ hc (ix1 c) (ix2 c (0 : Fin 1)) ?_).trans ?_
  · rw [Shape.rowMajor_val_two, Shape.rowMajor_val_one]
    show c.val * 1 + 0 = c.val
    omega
  · refine extractStridedSlice_apply off A hs (ix2 c (0 : Fin 1)) (ix2 c k) fun a => ?_
    match a with
    | ⟨0, _⟩ => show c.val = off 0 + c.val; omega
    | ⟨1, _⟩ => show k.val = off 1 + 0; omega

/-- Entry k of a pair, sliced out and viewed as a scalar, is the pair at k. -/
theorem ent_apply {α : Type} (A : S2.Idx → α) (off : Fin 1 → ℕ) (k : Fin 2) (h0 : off 0 = k.val)
    (hs : S2.Slices off S1) (hc : S1.ShapeCasts S_) (j : S_.Idx) :
    shapeCast S_ (extractStridedSlice S1 off A hs) hc j = A (ix1 k) := by
  refine (shapeCast_apply _ hc j (ix1 (0 : Fin 1)) ?_).trans ?_
  · have h1 : (S1.rowMajor (ix1 (0 : Fin 1))).val < 1 := (S1.rowMajor _).isLt
    have h2 : (S_.rowMajor j).val < 1 := (S_.rowMajor _).isLt
    omega
  · refine extractStridedSlice_apply off A hs (ix1 (0 : Fin 1)) (ix1 k) fun a => ?_
    match a with
    | ⟨0, _⟩ => show k.val = off 0 + 0; omega

/-- The head's matrix as the host builds it from W4. -/
def headW [Facts] (A7 : S64x2.Idx → EReal) : S64x2.Idx → EReal :=
  (truncf .bf16 (concatenate S64x2 1
    [⟨S64x1, broadcastInDim S64x1 ![0] Facts₀.bcast_S64_S64x1_0
        (subf (F := Ideal) (φ := .f32) (shapeCast S64 (extractStridedSlice S64x1 ![0, 0] A7 Facts₀.slices_S64x2_S64x1_0_0) Facts₀.shapeCasts_S64x1_S64)
          (shapeCast S64 (extractStridedSlice S64x1 ![0, 1] A7 Facts₀.slices_S64x2_S64x1_0_1) Facts₀.shapeCasts_S64x1_S64))⟩,
     ⟨S64x1, broadcastInDim S64x1 ![0] Facts₀.bcast_S64_S64x1_0
        (subf (F := Ideal) (φ := .f32) (shapeCast S64 (extractStridedSlice S64x1 ![0, 1] A7 Facts₀.slices_S64x2_S64x1_0_1) Facts₀.shapeCasts_S64x1_S64)
          (shapeCast S64 (extractStridedSlice S64x1 ![0, 0] A7 Facts₀.slices_S64x2_S64x1_0_0) Facts₀.shapeCasts_S64x1_S64))⟩]
    Facts₀.concatenates_S64x1_S64x1_S64x2_d1 : FVec Ideal S64x2 .f32) Facts₀.bitsLt_bf16_f32 : FVec Ideal S64x2 .bf16)

/-- The head's bias row as the host builds it from b4. -/
def headB [Facts] (A8 : S2.Idx → EReal) : S1x2.Idx → EReal :=
  shapeCast S1x2 (concatenate S2 0
    [⟨S1, broadcastInDim S1 ![] Facts₀.bcast_S_S1
        (subf (F := Ideal) (φ := .f32) (shapeCast S_ (extractStridedSlice S1 ![0] A8 Facts₀.slices_S2_S1_0) Facts₀.shapeCasts_S1_S_)
          (shapeCast S_ (extractStridedSlice S1 ![1] A8 Facts₀.slices_S2_S1_1) Facts₀.shapeCasts_S1_S_))⟩,
     ⟨S1, broadcastInDim S1 ![] Facts₀.bcast_S_S1
        (subf (F := Ideal) (φ := .f32) (shapeCast S_ (extractStridedSlice S1 ![1] A8 Facts₀.slices_S2_S1_1) Facts₀.shapeCasts_S1_S_)
          (shapeCast S_ (extractStridedSlice S1 ![0] A8 Facts₀.slices_S2_S1_0) Facts₀.shapeCasts_S1_S_))⟩]
    Facts₀.concatenates_S1_S1_S2_d0 : S2.Idx → EReal) Facts₀.shapeCasts_S2_S1x2

/-- The head's matrix at (c, q): the antisymmetric difference of W4's columns. -/
theorem headW_apply (A7 : S64x2.Idx → EReal) (c : Fin 64) (q : Fin 2) :
    headW A7 (ix2 c q) = diffCols (fun c j => A7 (ix2 c j)) c q := by
  unfold headW diffCols
  rw [truncf_apply]
  match q with
  | ⟨0, _⟩ =>
    refine (concatenate_pair_apply_left (t := S64x2) (s₁ := S64x1) (s₂ := S64x1) (1 : Fin 2) _ _ Facts₀.concatenates_S64x1_S64x1_S64x2_d1 (ix2 c (0 : Fin 2)) rfl
      (ix2 c (0 : Fin 1)) (fun b => by match b with | ⟨0, _⟩ => rfl | ⟨1, _⟩ => rfl)).trans ?_
    refine (broadcastInDim_apply _ Facts₀.bcast_S64_S64x1_0 _ (ix2 c (0 : Fin 1)) (ix1 c) (fun a => by
      match a with
      | ⟨0, _⟩ => show c.val = if (64 : ℕ) = 1 then 0 else c.val; rw [if_neg (by decide)])).trans ?_
    rw [subf_apply, col_apply A7 ![0, 0] 0 rfl rfl, col_apply A7 ![0, 1] 1 rfl rfl]
    rfl
  | ⟨1, _⟩ =>
    refine (concatenate_pair_apply_right (t := S64x2) (s₁ := S64x1) (s₂ := S64x1) (1 : Fin 2) _ _ Facts₀.concatenates_S64x1_S64x1_S64x2_d1 (ix2 c (1 : Fin 2)) rfl rfl
      (ix2 c (0 : Fin 1)) (fun b hb => by match b with | ⟨0, _⟩ => rfl | ⟨1, _⟩ => exact absurd rfl hb) rfl).trans ?_
    refine (broadcastInDim_apply _ Facts₀.bcast_S64_S64x1_0 _ (ix2 c (0 : Fin 1)) (ix1 c) (fun a => by
      match a with
      | ⟨0, _⟩ => show c.val = if (64 : ℕ) = 1 then 0 else c.val; rw [if_neg (by decide)])).trans ?_
    rw [subf_apply, col_apply A7 ![0, 1] 1 rfl rfl, col_apply A7 ![0, 0] 0 rfl rfl]
    rfl

/-- The head's bias row at (0, q): the antisymmetric difference of b4's entries. -/
theorem headB_apply (A8 : S2.Idx → EReal) (q : Fin 2) :
    headB A8 (ix2 (0 : Fin 1) q) = diffPair (fun j => A8 (ix1 j)) q := by
  unfold headB diffPair
  rw [vec_as_row_apply]
  match q with
  | ⟨0, _⟩ =>
    refine (concatenate_pair_apply_left (t := S2) (s₁ := S1) (s₂ := S1) (0 : Fin 1) _ _ Facts₀.concatenates_S1_S1_S2_d0 (ix1 (0 : Fin 2)) rfl
      (ix1 (0 : Fin 1)) (fun b => by match b with | ⟨0, _⟩ => rfl)).trans ?_
    refine (broadcastInDim_apply _ Facts₀.bcast_S_S1 _ (ix1 (0 : Fin 1)) ix0 (fun a => a.elim0)).trans ?_
    rw [subf_apply, ent_apply A8 ![0] 0 rfl, ent_apply A8 ![1] 1 rfl]
    rfl
  | ⟨1, _⟩ =>
    refine (concatenate_pair_apply_right (t := S2) (s₁ := S1) (s₂ := S1) (0 : Fin 1) _ _ Facts₀.concatenates_S1_S1_S2_d0 (ix1 (1 : Fin 2)) rfl rfl
      (ix1 (0 : Fin 1)) (fun b hb => by match b with | ⟨0, _⟩ => exact absurd rfl hb) rfl).trans ?_
    refine (broadcastInDim_apply _ Facts₀.bcast_S_S1 _ (ix1 (0 : Fin 1)) ix0 (fun a => a.elim0)).trans ?_
    rw [subf_apply, ent_apply A8 ![1] 1 rfl, ent_apply A8 ![0] 0 rfl]
    rfl

variable (m : (ℓ : Loc nD τ sig) → Buf (Elt Ideal) ℓ) (c : Dev nD)

/-- The narrowed W1, W2, W3 are W1, W2, W3. -/
theorem V_v0 : (V m c main_v0 : S512x256.Idx → EReal) = m ((c : Thread nD τ).loc main_arg1) := by
  dsimp only [Gen.V, Gen.hostOps0]; after_results; rfl
theorem V_v1 : (V m c main_v1 : S256x128.Idx → EReal) = m ((c : Thread nD τ).loc main_arg3) := by
  dsimp only [Gen.V, Gen.hostOps0]; after_results; rfl
theorem V_v2 : (V m c main_v2 : S128x64.Idx → EReal) = m ((c : Thread nD τ).loc main_arg5) := by
  dsimp only [Gen.V, Gen.hostOps0]; after_results; rfl

/-- The bias rows are the bias vectors viewed as one-row matrices. -/
theorem V_v31 : (V m c main_v31 : S1x256.Idx → EReal)
    = shapeCast S1x256 (m ((c : Thread nD τ).loc main_arg2) : S256.Idx → EReal) Facts₀.shapeCasts_S256_S1x256 := by
  dsimp only [Gen.V, Gen.hostOps0]; after_results; rfl
theorem V_v32 : (V m c main_v32 : S1x128.Idx → EReal)
    = shapeCast S1x128 (m ((c : Thread nD τ).loc main_arg4) : S128.Idx → EReal) Facts₀.shapeCasts_S128_S1x128 := by
  dsimp only [Gen.V, Gen.hostOps0]; after_results; rfl
theorem V_v33 : (V m c main_v33 : S1x64.Idx → EReal)
    = shapeCast S1x64 (m ((c : Thread nD τ).loc main_arg6) : S64.Idx → EReal) Facts₀.shapeCasts_S64_S1x64 := by
  dsimp only [Gen.V, Gen.hostOps0]; after_results; rfl

set_option maxHeartbeats 1600000 in
/-- The head's matrix and bias row. -/
theorem V_v30 : (V m c main_v30 : S64x2.Idx → EReal) = headW (m ((c : Thread nD τ).loc main_arg7)) := by
  dsimp only [Gen.V, Gen.hostOps0]; after_results; rfl
set_option maxHeartbeats 1600000 in
theorem V_v29 : (V m c main_v29 : S1x2.Idx → EReal) = headB (m ((c : Thread nD τ).loc main_arg8)) := by
  dsimp only [Gen.V, Gen.hostOps0]; after_results; rfl

end Cert.GateKernel

end
-- ==== Proof.KernelArray.lean ====
/-
  From the kernel's blocks to its result array.

  Grid point t takes rows [2048 t, 2048 t + 2048) of the input and writes the same rows of the [131072, 2] result;
  every other operand is one whole block, the same at every point. So what point t writes back is block t of
  `kernelOut` of the argument arrays, the 64 blocks cover the result, and the result array ends at `kernelOut`.
-/
import proofs.«167247_g9594956939721_cont_9to1_m_584_3_alg».proof.Proof.Gen.KernelIdeal.Value
import proofs.«167247_g9594956939721_cont_9to1_m_584_3_alg».proof.Proof.KernelTile
import proofs.«167247_g9594956939721_cont_9to1_m_584_3_alg».proof.Proof.KernelHost
import proofs.«167247_g9594956939721_cont_9to1_m_584_3_alg».proof.Proof.GateArrays
import Idealize.ShloMosaic.Lib.ValueIdx
import Idealize.ShloMosaic.Lib.Pipeline.Value
import Idealize.ShloMosaic.PureOps.Ideal.Laws

set_option maxRecDepth 16384

noncomputable section

namespace Cert.GateKernel

open Cert.KernelIdeal Cert.KernelIdeal.Gen Idealize.ShloMosaic Idealize.ShloMosaic.TcCoe Idealize.ShloMosaic.ValueIdx
open Idealize.SL.Sem Cert.GateSpec
open Idealize.ShloMosaic.Pipeline (Dat)

/-- A block of the output is the block of `kernelOut` at the array index `i` under it, when the point's operands
    are the argument arrays read where the block sits: the input's row `y 0` is the array's row `i 0`, the weights
    and biases whole, the head the antisymmetric differences. -/
theorem block_eq (x0 : Vec Ideal S2048x512 .f32) (x1 : Vec Ideal S512x256 .bf16) (x2 : Vec Ideal S1x256 .f32)
    (x3 : Vec Ideal S256x128 .bf16) (x4 : Vec Ideal S1x128 .f32) (x5 : Vec Ideal S128x64 .bf16) (x6 : Vec Ideal S1x64 .f32)
    (x7 : Vec Ideal S64x2 .bf16) (x8 : Vec Ideal S1x2 .f32)
    (A0 : S131072x512.Idx → EReal) (A1 : S512x256.Idx → EReal) (A2 : S256.Idx → EReal) (A3 : S256x128.Idx → EReal)
    (A4 : S128.Idx → EReal) (A5 : S128x64.Idx → EReal) (A6 : S64.Idx → EReal) (A7 : S64x2.Idx → EReal) (A8 : S2.Idx → EReal)
    (y : S2048x2.Idx) (i : S131072x2.Idx)
    (h0 : ∀ j : Fin 512, x0 (ix2 (y 0 : Fin 2048) j) = A0 (ix2 (i 0 : Fin 131072) j))
    (h1 : ∀ (j : Fin 512) (c : Fin 256), x1 (ix2 j c) = A1 (ix2 j c)) (h2 : ∀ c : Fin 256, x2 (ix2 (0 : Fin 1) c) = A2 (ix1 c))
    (h3 : ∀ (j : Fin 256) (c : Fin 128), x3 (ix2 j c) = A3 (ix2 j c)) (h4 : ∀ c : Fin 128, x4 (ix2 (0 : Fin 1) c) = A4 (ix1 c))
    (h5 : ∀ (j : Fin 128) (c : Fin 64), x5 (ix2 j c) = A5 (ix2 j c)) (h6 : ∀ c : Fin 64, x6 (ix2 (0 : Fin 1) c) = A6 (ix1 c))
    (h7 : ∀ (c : Fin 64) (q : Fin 2), x7 (ix2 c q) = diffCols (fun c j => A7 (ix2 c j)) c q)
    (h8 : ∀ q : Fin 2, x8 (ix2 (0 : Fin 1) q) = diffPair (fun j => A8 (ix1 j)) q)
    (hq : (i 1 : Fin 2) = (y 1 : Fin 2)) :
    Cert.KernelIdeal.Value.E9 (F := Ideal) x0 x1 x2 x3 x4 x5 x6 x7 x8 y = kernelOut A0 A1 A2 A3 A4 A5 A6 A7 A8 i := by
  have hy : y = @ix2 2048 2 (y 0) (y 1) := @eq_ix2 2048 2 y
  refine ((congrArg (Cert.KernelIdeal.Value.E9 (F := Ideal) x0 x1 x2 x3 x4 x5 x6 x7 x8) hy).trans
    (block_apply x0 x1 x2 x3 x4 x5 x6 x7 x8 (y 0) (y 1))).trans ?_
  unfold kernelOut
  rw [hq]
  have e1 : (fun (j : Fin 512) (c : Fin 256) => x1 (ix2 j c)) = fun j c => A1 (ix2 j c) := funext fun j => funext fun c => h1 j c
  have e2 : (fun c : Fin 256 => x2 (ix2 (0 : Fin 1) c)) = fun c => A2 (ix1 c) := funext h2
  have e3 : (fun (j : Fin 256) (c : Fin 128) => x3 (ix2 j c)) = fun j c => A3 (ix2 j c) := funext fun j => funext fun c => h3 j c
  have e4 : (fun c : Fin 128 => x4 (ix2 (0 : Fin 1) c)) = fun c => A4 (ix1 c) := funext h4
  have e5 : (fun (j : Fin 128) (c : Fin 64) => x5 (ix2 j c)) = fun j c => A5 (ix2 j c) := funext fun j => funext fun c => h5 j c
  have e6 : (fun c : Fin 64 => x6 (ix2 (0 : Fin 1) c)) = fun c => A6 (ix1 c) := funext h6
  have e7 : (fun (c : Fin 64) (j : Fin 2) => x7 (ix2 c j)) = diffCols fun c j => A7 (ix2 c j) := funext fun c => funext fun j => h7 c j
  have e8 : (fun j : Fin 2 => x8 (ix2 (0 : Fin 1) j)) = diffPair fun j => A8 (ix1 j) := funext h8
  rw [e7, e8]
  have es : stack3 x0 x1 x2 x3 x4 x5 x6 (y 0 : Fin 2048)
      = stack (fun r j => A0 (ix2 r j)) (fun j c => A1 (ix2 j c)) (fun c => A2 (ix1 c)) (fun j c => A3 (ix2 j c))
          (fun c => A4 (ix1 c)) (fun j c => A5 (ix2 j c)) (fun c => A6 (ix1 c)) (i 0 : Fin 131072) := by
    show stack (fun r j => x0 (ix2 r j)) (fun j c => x1 (ix2 j c)) (fun c => x2 (ix2 (0 : Fin 1) c)) (fun j c => x3 (ix2 j c))
          (fun c => x4 (ix2 (0 : Fin 1) c)) (fun j c => x5 (ix2 j c)) (fun c => x6 (ix2 (0 : Fin 1) c)) (y 0 : Fin 2048) = _
    rw [e1, e2, e3, e4, e5, e6]
    exact stack_row _ _ _ _ _ _ _ _ (y 0 : Fin 2048) (i 0 : Fin 131072) (funext h0)
  rw [es]

theorem hz : (![0, 0] : Fin 2 → Nat) = fun _ => 0 := funext fun a => by fin_cases a <;> rfl

/-- The printed index maps, decided over the grid: the input's block moves with the output's along the rows, every
    other operand's block index is zero, and the output's row-block index is below 64. -/
theorem idx_facts : ∀ t : Fin cfg0.N, win0_0.index t (0 : Fin 2) = win0_9.index t (0 : Fin 2)
    ∧ win0_0.index t (1 : Fin 2) = 0 ∧ win0_9.index t (1 : Fin 2) = 0 ∧ win0_9.index t (0 : Fin 2) ≤ 63
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every row block is some point's. -/
theorem idx_onto : ∀ q0 : Fin 64, ∃ t : Fin cfg0.N, win0_9.index t = ![q0.val, 0] :=
  (by decide +kernel : ∀ q0 : Fin 64, ∃ t : Fin grid0.N, win0_9.index t = ![q0.val, 0])

variable (m : (ℓ : Loc nD τ sig) → Buf (Elt Ideal) ℓ) (c : Dev nD)

/-- The input's block at a point: its row p is row (block index) * 2048 + p of the array. -/
theorem blk0 (t : Fin cfg0.N) (y : S2048x2.Idx) (j : Fin 512) :
    View.ld (iblk m c 0 t) r0_0 (ix2 (y 0 : Fin 2048) j)
      = m ((c : Thread nD τ).loc main_arg0) (ix2 ((((cfg0.win 9).blk t).view.emb y) 0 : Fin 131072) j) := by
  obtain ⟨f00, f01, f91, f90, f10, f11, f20, f21, f30, f31, f40, f41, f50, f51, f60, f61, f70, f71, f80, f81⟩ := idx_facts t
  rw [View.ld_unit_zero (S := S2048x512) hz]
  show V m c main_arg0 (((cfg0.win 0).blk t).view.emb (ix2 (y 0 : Fin 2048) j)) = _
  rw [V_main_arg0]
  refine congrArg _ (funext fun a => Fin.ext ?_)
  match a with
  | ⟨0, _⟩ => show win0_0.index t (0 : Fin 2) * 2048 + 1 * (y 0).val = win0_9.index t (0 : Fin 2) * 2048 + 1 * (y 0).val; omega
  | ⟨1, _⟩ => show win0_0.index t (1 : Fin 2) * 512 + 1 * j.val = j.val; omega

/-- The weights' and biases' blocks are the whole arrays, at every point. -/

theorem blk1 (t : Fin cfg0.N) (j : Fin 512) (k : Fin 256) :
    View.ld (iblk m c 1 t) r0_1 (ix2 j k) = m ((c : Thread nD τ).loc main_arg1) (ix2 j k) := by
  obtain ⟨f00, f01, f91, f90, f10, f11, f20, f21, f30, f31, f40, f41, f50, f51, f60, f61, f70, f71, f80, f81⟩ := idx_facts t
  rw [View.ld_unit_zero (S := S512x256) hz]
  show V m c main_v0 (((cfg0.win 1).blk t).view.emb (ix2 j k)) = _
  rw [V_v0]
  refine congrArg _ (funext fun a => Fin.ext ?_)
  match a with
  | ⟨0, _⟩ => show win0_1.index t (0 : Fin 2) * 512 + 1 * j.val = j.val; omega
  | ⟨1, _⟩ => show win0_1.index t (1 : Fin 2) * 256 + 1 * k.val = k.val; omega

theorem blk2 (t : Fin cfg0.N) (k : Fin 256) :
    View.ld (iblk m c 2 t) r0_2 (ix2 (0 : Fin 1) k) = m ((c : Thread nD τ).loc main_arg2) (ix1 k) := by
  obtain ⟨f00, f01, f91, f90, f10, f11, f20, f21, f30, f31, f40, f41, f50, f51, f60, f61, f70, f71, f80, f81⟩ := idx_facts t
  rw [View.ld_unit_zero (S := S1x256) hz]
  show V m c main_v31 (((cfg0.win 2).blk t).view.emb (ix2 (0 : Fin 1) k)) = _
  rw [V_v31]
  refine Eq.trans (congrArg _ (funext fun a => Fin.ext ?_)) (vec_as_row_apply _ _ (0 : Fin 1) k)
  match a with
  | ⟨0, _⟩ => show win0_2.index t (0 : Fin 2) * 1 + 1 * 0 = 0; omega
  | ⟨1, _⟩ => show win0_2.index t (1 : Fin 2) * 256 + 1 * k.val = k.val; omega

theorem blk3 (t : Fin cfg0.N) (j : Fin 256) (k : Fin 128) :
    View.ld (iblk m c 3 t) r0_3 (ix2 j k) = m ((c : Thread nD τ).loc main_arg3) (ix2 j k) := by
  obtain ⟨f00, f01, f91, f90, f10, f11, f20, f21, f30, f31, f40, f41, f50, f51, f60, f61, f70, f71, f80, f81⟩ := idx_facts t
  rw [View.ld_unit_zero (S := S256x128) hz]
  show V m c main_v1 (((cfg0.win 3).blk t).view.emb (ix2 j k)) = _
  rw [V_v1]
  refine congrArg _ (funext fun a => Fin.ext ?_)
  match a with
  | ⟨0, _⟩ => show win0_3.index t (0 : Fin 2) * 256 + 1 * j.val = j.val; omega
  | ⟨1, _⟩ => show win0_3.index t (1 : Fin 2) * 128 + 1 * k.val = k.val; omega

theorem blk4 (t : Fin cfg0.N) (k : Fin 128) :
    View.ld (iblk m c 4 t) r0_4 (ix2 (0 : Fin 1) k) = m ((c : Thread nD τ).loc main_arg4) (ix1 k) := by
  obtain ⟨f00, f01, f91, f90, f10, f11, f20, f21, f30, f31, f40, f41, f50, f51, f60, f61, f70, f71, f80, f81⟩ := idx_facts t
  rw [View.ld_unit_zero (S := S1x128) hz]
  show V m c main_v32 (((cfg0.win 4).blk t).view.emb (ix2 (0 : Fin 1) k)) = _
  rw [V_v32]
  refine Eq.trans (congrArg _ (funext fun a => Fin.ext ?_)) (vec_as_row_apply _ _ (0 : Fin 1) k)
  match a with
  | ⟨0, _⟩ => show win0_4.index t (0 : Fin 2) * 1 + 1 * 0 = 0; omega
  | ⟨1, _⟩ => show win0_4.index t (1 : Fin 2) * 128 + 1 * k.val = k.val; omega

theorem blk5 (t : Fin cfg0.N) (j : Fin 128) (k : Fin 64) :
    View.ld (iblk m c 5 t) r0_5 (ix2 j k) = m ((c : Thread nD τ).loc main_arg5) (ix2 j k) := by
  obtain ⟨f00, f01, f91, f90, f10, f11, f20, f21, f30, f31, f40, f41, f50, f51, f60, f61, f70, f71, f80, f81⟩ := idx_facts t
  rw [View.ld_unit_zero (S := S128x64) hz]
  show V m c main_v2 (((cfg0.win 5).blk t).view.emb (ix2 j k)) = _
  rw [V_v2]
  refine congrArg _ (funext fun a => Fin.ext ?_)
  match a with
  | ⟨0, _⟩ => show win0_5.index t (0 : Fin 2) * 128 + 1 * j.val = j.val; omega
  | ⟨1, _⟩ => show win0_5.index t (1 : Fin 2) * 64 + 1 * k.val = k.val; omega

theorem blk6 (t : Fin cfg0.N) (k : Fin 64) :
    View.ld (iblk m c 6 t) r0_6 (ix2 (0 : Fin 1) k) = m ((c : Thread nD τ).loc main_arg6) (ix1 k) := by
  obtain ⟨f00, f01, f91, f90, f10, f11, f20, f21, f30, f31, f40, f41, f50, f51, f60, f61, f70, f71, f80, f81⟩ := idx_facts t
  rw [View.ld_unit_zero (S := S1x64) hz]
  show V m c main_v33 (((cfg0.win 6).blk t).view.emb (ix2 (0 : Fin 1) k)) = _
  rw [V_v33]
  refine Eq.trans (congrArg _ (funext fun a => Fin.ext ?_)) (vec_as_row_apply _ _ (0 : Fin 1) k)
  match a with
  | ⟨0, _⟩ => show win0_6.index t (0 : Fin 2) * 1 + 1 * 0 = 0; omega
  | ⟨1, _⟩ => show win0_6.index t (1 : Fin 2) * 64 + 1 * k.val = k.val; omega

/-- The head's blocks are the antisymmetric differences of W4 and of b4. -/
theorem blk7 (t : Fin cfg0.N) (k : Fin 64) (q : Fin 2) :
    View.ld (iblk m c 7 t) r0_7 (ix2 k q) = diffCols (fun c' j => m ((c : Thread nD τ).loc main_arg7) (ix2 c' j)) k q := by
  obtain ⟨f00, f01, f91, f90, f10, f11, f20, f21, f30, f31, f40, f41, f50, f51, f60, f61, f70, f71, f80, f81⟩ := idx_facts t
  rw [View.ld_unit_zero (S := S64x2) hz]
  show V m c main_v30 (((cfg0.win 7).blk t).view.emb (ix2 k q)) = _
  rw [V_v30]
  refine Eq.trans (congrArg _ (funext fun a => Fin.ext ?_)) (headW_apply _ k q)
  match a with
  | ⟨0, _⟩ => show win0_7.index t (0 : Fin 2) * 64 + 1 * k.val = k.val; omega
  | ⟨1, _⟩ => show win0_7.index t (1 : Fin 2) * 2 + 1 * q.val = q.val; omega

theorem blk8 (t : Fin cfg0.N) (q : Fin 2) :
    View.ld (iblk m c 8 t) r0_8 (ix2 (0 : Fin 1) q) = diffPair (fun j => m ((c : Thread nD τ).loc main_arg8) (ix1 j)) q := by
  obtain ⟨f00, f01, f91, f90, f10, f11, f20, f21, f30, f31, f40, f41, f50, f51, f60, f61, f70, f71, f80, f81⟩ := idx_facts t
  rw [View.ld_unit_zero (S := S1x2) hz]
  show V m c main_v29 (((cfg0.win 8).blk t).view.emb (ix2 (0 : Fin 1) q)) = _
  rw [V_v29]
  refine Eq.trans (congrArg _ (funext fun a => Fin.ext ?_)) (headB_apply _ q)
  match a with
  | ⟨0, _⟩ => show win0_8.index t (0 : Fin 2) * 1 + 1 * 0 = 0; omega
  | ⟨1, _⟩ => show win0_8.index t (1 : Fin 2) * 2 + 1 * q.val = q.val; omega

set_option maxHeartbeats 800000 in
/-- What point t writes back is block t of `kernelOut` of the argument arrays. -/
theorem flushed_eq (t : Fin cfg0.N) :
    (dats m 0 c).flushed 9 t = ((cfg0.win 9).blk t).view.read (Elt Ideal) (kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9]
  funext y
  show out0_9 (iblk m c 0 t) (iblk m c 1 t) (iblk m c 2 t) (iblk m c 3 t) (iblk m c 4 t) (iblk m c 5 t) (iblk m c 6 t) (iblk m c 7 t) (iblk m c 8 t) y
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y)
  unfold out0_9
  refine (Cert.KernelIdeal.Value.canon9_eq _ _ _ _ _ _ _ _ _ y).trans ?_
  refine block_eq _ _ _ _ _ _ _ _ _ _ _ _ _ _ _ _ _ _ y _ (blk0 m c t y) (blk1 m c t) (blk2 m c t) (blk3 m c t) (blk4 m c t)
    (blk5 m c t) (blk6 m c t) (blk7 m c t) (blk8 m c t) ?_
  apply Fin.ext
  show win0_9.index t (1 : Fin 2) * 2 + 1 * (y 1).val = (y 1).val
  have f91 := (idx_facts t).2.2.1
  omega

/-- An index of the result is in point t's block iff each coordinate is in the block's range on its axis. -/
theorem mem_blk (t : Fin cfg0.N) (i : S131072x2.Idx) :
    i ∈ ((cfg0.win 9).blk t).view.set ↔ ∀ a : Fin 2, win0_9.index t a * S2048x2.size a ≤ (i a).val ∧ (i a).val < win0_9.index t a * S2048x2.size a + S2048x2.size a := by
  show i ∈ ((View.whole main_v34).slice (win0_9.rect t)).set ↔ _
  rw [View.set_slice_whole, Rect.mem_set_unit]
  exact Iff.rfl

/-- The 64 blocks cover the result: row r is in the block of the point whose row-block index is r / 2048. -/
theorem cover (i : S131072x2.Idx) : ∃ t : Fin cfg0.N, (cfg0.win 9).flush t = true ∧ i ∈ ((cfg0.win 9).blk t).view.set := by
  have hi0 : (i 0).val < 131072 := (i 0).isLt
  have hi1 : (i 1).val < 2 := (i 1).isLt
  obtain ⟨t, ht⟩ := idx_onto ⟨(i 0).val / 2048, by omega⟩
  have q0 : win0_9.index t (0 : Fin 2) = (i 0).val / 2048 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 2 ≤ (i 1).val ∧ (i 1).val < win0_9.index t (1 : Fin 2) * 2 + 2; omega

/-- The result array after the run is `kernelOut` of the argument arrays. -/
theorem final : (dats m 0 c).arrAt 9 cfg0.N = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

/-- The kernel's run: the result at `kernelOut` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v34) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.GateKernel

end
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.RefValue.lean ====
/-
  The reference's result as a function of its arguments, entry by entry.

  Three times: a product with a weight matrix, a bias vector spread down the rows, a maximum with 0. Then the two
  logits of a row, their maximum (folded from -inf, and once more against -inf), the exponentials of the shifted
  logits, their sum from 0, and the quotient: `refOut`.
-/
import proofs.«167247_g9594956939721_cont_9to1_m_584_3_alg».proof.Proof.Gen.ReferenceIdeal.Read
import proofs.«167247_g9594956939721_cont_9to1_m_584_3_alg».proof.Proof.LibRowMax
import proofs.«167247_g9594956939721_cont_9to1_m_584_3_alg».proof.Proof.GateArrays
import Idealize.ShloMosaic.Lib.ValueIdx
import Idealize.ShloMosaic.PureOps.Ideal.Laws

noncomputable section

open scoped BigOperators

namespace Cert.GateRef

open Cert.ReferenceIdeal Cert.ReferenceIdeal.Gen Cert.ReferenceIdeal.Read Idealize.ShloMosaic Idealize.ShloMosaic.ValueIdx
open Cert.GateSpec

/-- The binary32 word of -inf is bot. -/
theorem ofBits_neginf_f32 : Ideal.ofBits .f32 0xFF800000#32 = ⊥ := by simp [Ideal.ofBits, Ideal.ieee]

variable (x0 : (⟨S131072x512, .f32⟩ : BufTy).Contents (Elt Ideal)) (x1 : (⟨S512x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S64x2, .f32⟩ : BufTy).Contents (Elt Ideal)) (x8 : (⟨S2, .f32⟩ : BufTy).Contents (Elt Ideal))

theorem ref_h1 : (fun (r : Fin 131072) (c : Fin 256) => val_main_v4 (F := Ideal) x0 x1 x2 (ix2 r c)) = layer (fun r j => x0 (ix2 r j)) (fun j c => x1 (ix2 j c)) (fun c => x2 (ix1 c)) := by
  skip
  funext r c
  rw [val_main_v4_apply, val_main_v3_apply, val_main_v0_apply, val_main_v2_apply, val_main_v1_apply, val_main_call0_v0_apply, val_main_call0_cst_apply]
  have e1 : ∀ k : Fin 512, lidx_main_v0 (ix2 r c) k = ix2 r k := fun k =>
    funext fun a => Fin.ext (by match a with | ⟨0, _⟩ => rfl | ⟨1, _⟩ => rfl)
  have e2 : ∀ k : Fin 512, ridx_main_v0 (ix2 r c) k = ix2 k c := fun k =>
    funext fun a => Fin.ext (by match a with | ⟨0, _⟩ => rfl | ⟨1, _⟩ => rfl)
  have e3 : idx_main_v1 (idx_main_v2 (ix2 r c)) = ix1 c :=
    funext fun a => Fin.ext (by match a with | ⟨0, _⟩ => rfl)
  simp only [e1, e2, e3]
  show max (_ + _) (Ideal.ofBits .f32 0x00000000#32) = _
  rw [Ideal.ofBits_zero_f32]
  rfl

theorem ref_h2 : (fun (r : Fin 131072) (c : Fin 128) => val_main_v9 (F := Ideal) x0 x1 x2 x3 x4 (ix2 r c)) = layer (layer (fun r j => x0 (ix2 r j)) (fun j c => x1 (ix2 j c)) (fun c => x2 (ix1 c))) (fun j c => x3 (ix2 j c)) (fun c => x4 (ix1 c)) := by
  rw [← ref_h1 x0 x1 x2]
  funext r c
  rw [val_main_v9_apply, val_main_v8_apply, val_main_v5_apply, val_main_v7_apply, val_main_v6_apply, val_main_call1_v0_apply, val_main_call1_cst_apply]
  have e1 : ∀ k : Fin 256, lidx_main_v5 (ix2 r c) k = ix2 r k := fun k =>
    funext fun a => Fin.ext (by match a with | ⟨0, _⟩ => rfl | ⟨1, _⟩ => rfl)
  have e2 : ∀ k : Fin 256, ridx_main_v5 (ix2 r c) k = ix2 k c := fun k =>
    funext fun a => Fin.ext (by match a with | ⟨0, _⟩ => rfl | ⟨1, _⟩ => rfl)
  have e3 : idx_main_v6 (idx_main_v7 (ix2 r c)) = ix1 c :=
    funext fun a => Fin.ext (by match a with | ⟨0, _⟩ => rfl)
  simp only [e1, e2, e3]
  show max (_ + _) (Ideal.ofBits .f32 0x00000000#32) = _
  rw [Ideal.ofBits_zero_f32]
  rfl

theorem ref_h3 : (fun (r : Fin 131072) (c : Fin 64) => val_main_v14 (F := Ideal) x0 x1 x2 x3 x4 x5 x6 (ix2 r c)) = layer (layer (layer (fun r j => x0 (ix2 r j)) (fun j c => x1 (ix2 j c)) (fun c => x2 (ix1 c))) (fun j c => x3 (ix2 j c)) (fun c => x4 (ix1 c))) (fun j c => x5 (ix2 j c)) (fun c => x6 (ix1 c)) := by
  rw [← ref_h2 x0 x1 x2 x3 x4]
  funext r c
  rw [val_main_v14_apply, val_main_v13_apply, val_main_v10_apply, val_main_v12_apply, val_main_v11_apply, val_main_call2_v0_apply, val_main_call2_cst_apply]
  have e1 : ∀ k : Fin 128, lidx_main_v10 (ix2 r c) k = ix2 r k := fun k =>
    funext fun a => Fin.ext (by match a with | ⟨0, _⟩ => rfl | ⟨1, _⟩ => rfl)
  have e2 : ∀ k : Fin 128, ridx_main_v10 (ix2 r c) k = ix2 k c := fun k =>
    funext fun a => Fin.ext (by match a with | ⟨0, _⟩ => rfl | ⟨1, _⟩ => rfl)
  have e3 : idx_main_v11 (idx_main_v12 (ix2 r c)) = ix1 c :=
    funext fun a => Fin.ext (by match a with | ⟨0, _⟩ => rfl)
  simp only [e1, e2, e3]
  show max (_ + _) (Ideal.ofBits .f32 0x00000000#32) = _
  rw [Ideal.ofBits_zero_f32]
  rfl

/-- The reference's result is `refOut` of its arguments. -/
theorem ref_out : val_main_v29 (F := Ideal) x0 x1 x2 x3 x4 x5 x6 x7 x8 = refOut x0 x1 x2 x3 x4 x5 x6 x7 x8 := by
  funext i
  obtain ⟨r, q, rfl⟩ : ∃ (r : Fin 131072) (q : Fin 2), i = ix2 r q := ⟨i 0, i 1, eq_ix2 i⟩
  have hs : stack (fun r j => x0 (ix2 r j)) (fun j c => x1 (ix2 j c)) (fun c => x2 (ix1 c)) (fun j c => x3 (ix2 j c)) (fun c => x4 (ix1 c)) (fun j c => x5 (ix2 j c)) (fun c => x6 (ix1 c)) r = fun c => val_main_v14 (F := Ideal) x0 x1 x2 x3 x4 x5 x6 (ix2 r c) :=
    congrFun (ref_h3 x0 x1 x2 x3 x4 x5 x6).symm r
  -- the two logits of row r
  have hL : ∀ j : Fin 2, val_main_v18 (F := Ideal) x0 x1 x2 x3 x4 x5 x6 x7 x8 (ix2 r j)
      = logits (stack (fun r j => x0 (ix2 r j)) (fun j c => x1 (ix2 j c)) (fun c => x2 (ix1 c)) (fun j c => x3 (ix2 j c)) (fun c => x4 (ix1 c)) (fun j c => x5 (ix2 j c)) (fun c => x6 (ix1 c)) r) (fun c j => x7 (ix2 c j)) (fun j => x8 (ix1 j)) j := by
    intro j
    rw [val_main_v18_apply, val_main_v15_apply, val_main_v17_apply, val_main_v16_apply]
    have e1 : ∀ k : Fin 64, lidx_main_v15 (ix2 r j) k = ix2 r k := fun k =>
      funext fun a => Fin.ext (by match a with | ⟨0, _⟩ => rfl | ⟨1, _⟩ => rfl)
    have e2 : ∀ k : Fin 64, ridx_main_v15 (ix2 r j) k = ix2 k j := fun k =>
      funext fun a => Fin.ext (by match a with | ⟨0, _⟩ => rfl | ⟨1, _⟩ => rfl)
    have e3 : idx_main_v16 (idx_main_v17 (ix2 r j)) = ix1 j :=
      funext fun a => Fin.ext (by match a with | ⟨0, _⟩ => rfl)
    simp only [e1, e2, e3]
    rw [hs]
    rfl
  -- their maximum
  have hM : val_main_v21 (F := Ideal) x0 x1 x2 x3 x4 x5 x6 x7 x8 (ix1 r)
      = max ⊥ ((Finset.univ : Finset (Fin 2)).fold max ⊥ (logits (stack (fun r j => x0 (ix2 r j)) (fun j c => x1 (ix2 j c)) (fun c => x2 (ix1 c)) (fun j c => x3 (ix2 j c)) (fun c => x4 (ix1 c)) (fun j c => x5 (ix2 j c)) (fun c => x6 (ix1 c)) r) (fun c j => x7 (ix2 c j)) (fun j => x8 (ix1 j)))) := by
    rw [val_main_v21_apply, val_main_v20_apply, val_main_cst_0_apply]
    unfold val_main_v19
    rw [Cert.Lib.RowMax.hostRowMax_apply _ _ _ (by decide) _ r]
    simp only [hL, val_main_cst_apply]
    show max (Ideal.ofBits .f32 0xFF800000#32) (Finset.fold max (Ideal.ofBits .f32 0xFF800000#32) _ _) = _
    rw [ofBits_neginf_f32]
  -- the exponentials of the shifted logits
  have hE : ∀ j : Fin 2, val_main_v25 (F := Ideal) x0 x1 x2 x3 x4 x5 x6 x7 x8 (ix2 r j)
      = Ideal.exp (logits (stack (fun r j => x0 (ix2 r j)) (fun j c => x1 (ix2 j c)) (fun c => x2 (ix1 c)) (fun j c => x3 (ix2 j c)) (fun c => x4 (ix1 c)) (fun j c => x5 (ix2 j c)) (fun c => x6 (ix1 c)) r) (fun c j => x7 (ix2 c j)) (fun j => x8 (ix1 j)) j
          - max ⊥ ((Finset.univ : Finset (Fin 2)).fold max ⊥ (logits (stack (fun r j => x0 (ix2 r j)) (fun j c => x1 (ix2 j c)) (fun c => x2 (ix1 c)) (fun j c => x3 (ix2 j c)) (fun c => x4 (ix1 c)) (fun j c => x5 (ix2 j c)) (fun c => x6 (ix1 c)) r) (fun c j => x7 (ix2 c j)) (fun j => x8 (ix1 j))))) := by
    intro j
    rw [val_main_v25_apply, val_main_v24_apply, val_main_v23_apply, val_main_v22_apply]
    have e : idx_main_v22 (idx_main_v23 (ix2 r j)) = ix1 r :=
      funext fun a => Fin.ext (by match a with | ⟨0, _⟩ => rfl)
    rw [e, hM, hL]
    rfl
  rw [val_main_v29_apply, val_main_v28_apply, val_main_v27_apply, val_main_v26_apply, val_main_cst_1_apply]
  have e : idx_main_v27 (idx_main_v28 (ix2 r q)) = ix1 r :=
    funext fun a => Fin.ext (by match a with | ⟨0, _⟩ => rfl)
  have e' : ∀ k : Fin 2, idx_main_v26 (ix1 r) k = ix2 r k := fun k =>
    funext fun a => Fin.ext (by match a with | ⟨0, _⟩ => rfl | ⟨1, _⟩ => rfl)
  rw [e]
  simp only [e', hE]
  show Ideal.div _ (Ideal.ofBits .f32 0x00000000#32 + _) = _
  rw [Ideal.ofBits_zero_f32]
  rfl

end Cert.GateRef

end
-- ==== Proof.Finite.lean ====
/-
  From the precondition to real entries.

  The precondition says, of each of the nine arguments, that every entry's absolute value is below +inf, the nine
  answers joined by `and`. An extended real whose absolute value max x (-x) is below the top is neither infinity:
  it is a real number.
-/
import proofs.«167247_g9594956939721_cont_9to1_m_584_3_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.GateFinite

open Cert.Pre_finite_inputs Idealize.ShloMosaic Idealize.ShloMosaic.ValueIdx

instance : Subsingleton S_.Idx := ⟨fun a b => funext fun d => d.elim0⟩

/-- An extended real whose absolute value is below +inf is a real. -/
theorem real_of_abs_lt (x : EReal)
    (h : FloatOps.cmpf (F := Ideal) (φ := .f32) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  have h' : max x (-x) < (⊤ : EReal) := by
    by_contra hn
    have h0 : FloatOps.cmpf (F := Ideal) (φ := .f32) .olt (FloatOps.hostAbsf x) (⊤ : EReal) = 0#1 := by
      show BitVec.ofBool (decide (max x (-x) < ⊤)) = 0#1
      rw [decide_eq_false hn]; rfl
    rw [h0] at h
    exact absurd h (by decide)
  have hx1 : x < ⊤ := lt_of_le_of_lt (le_max_left _ _) h'
  have hx2 : -x < ⊤ := lt_of_le_of_lt (le_max_right _ _) h'
  have hx3 : x ≠ ⊥ := by rintro rfl; simp at hx2
  exact ⟨x.toReal, (EReal.coe_toReal hx1.ne hx3).symm⟩

/-- When `all (|x| < +inf)` answers 1, every entry of x is a real. -/
theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ix0 = 1#1) (i : S.Idx) : ∃ r : ℝ, x i = r := by
  have h := Host.reduce_andi_all _ _ hr hu ix0 e i
  refine real_of_abs_lt (x i) ?_
  rw [cmpf_apply] at h
  have hb' : broadcastInDim S ![] hb (constant (F := Ideal) S_ .f32 0x7F800000#32) i = Ideal.ofBits .f32 0x7F800000#32 :=
    broadcastInDim_apply _ hb _ i ix0 (fun a => a.elim0)
  rw [hb'] at h
  exact h

variable [Facts]

/-- Under the precondition every entry of every argument is a real. -/
theorem reals_of_pre (a0 : FVec Ideal S131072x512 .f32) (a1 : FVec Ideal S512x256 .f32) (a2 : FVec Ideal S256 .f32)
    (a3 : FVec Ideal S256x128 .f32) (a4 : FVec Ideal S128 .f32) (a5 : FVec Ideal S128x64 .f32) (a6 : FVec Ideal S64 .f32)
    (a7 : FVec Ideal S64x2 .f32) (a8 : FVec Ideal S2 .f32)
    (h : fn (F := Ideal) a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) := by
  have h0 : fn (F := Ideal) a0 a1 a2 a3 a4 a5 a6 a7 a8 ix0 = 1#1 := congrFun h ix0
  unfold fn fn_part1 fn_part2 at h0
  dsimp only at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7, real_of_all a8 _ _ _ e8⟩

end Cert.GateFinite

end
-- ==== Proof.lean ====
/-
  A gate head behind three clamped linear layers: the kernel against its reference, on the extended reals.

  Both programs send each of the 131072 input rows through relu (x W1 + b1), relu (. W2 + b2), relu (. W3 + b3) to a
  row h of 64 entries. The reference then forms the two logits l_j = h . W4[:, j] + b4[j] and answers their shifted
  softmax exp (l_q - M) / (exp (l_0 - M) + exp (l_1 - M)), M the larger logit. The kernel forms instead the two
  antisymmetric logits d_q = h . (W4[:, q] - W4[:, 1-q]) + (b4[q] - b4[1-q]) and answers 1 / (1 + exp (0 - d_q)).
  On finite arguments every intermediate value is a real number, so d_q = l_q - l_{1-q} by distributivity and
  1 / (1 + exp (-(x - y))) = exp (x - M) / (exp (x - M) + exp (y - M)): the two results are one function of the
  arguments (LibGateHead, GateArrays). The kernel's result array is that function block by block (KernelTile,
  KernelHost, KernelArray), the reference's result is it operation by operation (RefValue), and the precondition
  makes every entry real (Finite). The narrowing of the products' operands to bf16 is the identity here.
-/
import proofs.«167247_g9594956939721_cont_9to1_m_584_3_alg».proof.Defs
import proofs.«167247_g9594956939721_cont_9to1_m_584_3_alg».proof.Proof.Gen.Kernel
import proofs.«167247_g9594956939721_cont_9to1_m_584_3_alg».proof.Proof.Gen.Kernel.Skeleton
import proofs.«167247_g9594956939721_cont_9to1_m_584_3_alg».proof.Proof.Gen.Kernel.Launch
import proofs.«167247_g9594956939721_cont_9to1_m_584_3_alg».proof.Proof.Gen.Kernel.Points
import proofs.«167247_g9594956939721_cont_9to1_m_584_3_alg».proof.Proof.Gen.Kernel.Frame
import proofs.«167247_g9594956939721_cont_9to1_m_584_3_alg».proof.Proof.Gen.KernelIdeal
import proofs.«167247_g9594956939721_cont_9to1_m_584_3_alg».proof.Proof.Gen.KernelIdeal.Skeleton
import proofs.«167247_g9594956939721_cont_9to1_m_584_3_alg».proof.Proof.Gen.KernelIdeal.Launch
import proofs.«167247_g9594956939721_cont_9to1_m_584_3_alg».proof.Proof.Gen.KernelIdeal.Points
import proofs.«167247_g9594956939721_cont_9to1_m_584_3_alg».proof.Proof.Gen.KernelIdeal.Frame
import proofs.«167247_g9594956939721_cont_9to1_m_584_3_alg».proof.Proof.Gen.ReferenceIdeal
import proofs.«167247_g9594956939721_cont_9to1_m_584_3_alg».proof.Proof.Gen.Pre_finite_inputs
import proofs.«167247_g9594956939721_cont_9to1_m_584_3_alg».proof.Proof.Gen.KernelIdeal.Value
import proofs.«167247_g9594956939721_cont_9to1_m_584_3_alg».proof.Proof.Gen.ReferenceIdeal.Run
import proofs.«167247_g9594956939721_cont_9to1_m_584_3_alg».proof.Proof.Gen.ReferenceIdeal.Read
import proofs.«167247_g9594956939721_cont_9to1_m_584_3_alg».proof.Proof.GateArrays
import proofs.«167247_g9594956939721_cont_9to1_m_584_3_alg».proof.Proof.KernelArray
import proofs.«167247_g9594956939721_cont_9to1_m_584_3_alg».proof.Proof.RefValue
import proofs.«167247_g9594956939721_cont_9to1_m_584_3_alg».proof.Proof.Finite
import Idealize.ShloMosaic.Adequacy
import Idealize.ShloMosaic.Init

noncomputable section

namespace Cert.Proof

open Idealize.ShloMosaic Idealize.SL.Sem Cert.GateSpec

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the finite arguments the kernel's result array ends at `kernelOut` of them and the
    reference's at `refOut` of them: one function. -/
theorem algebraic : Cert.algebraic_KernelIdeal_ReferenceIdeal := by
  intro m ρ m' ρ' hpre hagree
  refine ⟨fun c => kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.GateKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.GateRef.ref_out]
  obtain ⟨a0, a1, a2, a3, a4, a5, a6, a7, a8⟩ := hagree c
  rw [a0, a1, a2, a3, a4, a5, a6, a7, a8]
  obtain ⟨r0, r1, r2, r3, r4, r5, r6, r7, r8⟩ := Cert.GateFinite.reals_of_pre _ _ _ _ _ _ _ _ _ (hpre c)
  exact (kernelOut_eq_refOut _ _ _ _ _ _ _ _ _ r0 r1 r2 r3 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
